-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S192x256 : Shape := ⟨2, ![192, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S256 .f32) (main_arg7 : FVec F S256x40 .f32) (main_arg8 : FVec F S40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x40 .f32 := Host.absf main_arg7
  let main_cst_8 : FVec F S_ .f32 := constant S_ .f32 0x7F800000#32
  let main_v25 : FVec F S256x40 .f32 := broadcastInDim S256x40 ![] bcast_S_S256x40 main_cst_8
  let main_v26 : IVec S256x40 1 := cmpf .olt main_v24 main_v25
  let main_c_9 : IVec S_ 1 := constantI S_ 1 1#1
  let main_v27 : IVec S_ 1 := (fun x v => Host.reduce IntOp.andi x v reducesTo_S256x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x96 .f32) (main_arg1 : IVec S800000 32) (main_arg2 : IVec S800000 32) (main_arg3 : FVec F S192x256 .f32) (main_arg4 : FVec F S256 .f32) (main_arg5 : FVec F S256x256 .f32) (main_arg6 : FVec F S256 .f32) (main_arg7 : FVec F S256x40 .f32) (main_arg8 : FVec F S40 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S192x256 .f32 := Host.absf main_arg3
  let main_cst_0 : FVec F S_ .f32 := constant S_ .f32 0x7F800000#32
  let main_v5 : FVec F S192x256 .f32 := broadcastInDim S192x256 ![] bcast_S_S192x256 main_cst_0
  let main_v6 : IVec S192x256 1 := cmpf .olt main_v4 main_v5
  let main_c_1 : IVec S_ 1 := constantI S_ 1 1#1
  let main_v7 : IVec S_ 1 := (fun x v => Host.reduce IntOp.andi x v reducesTo_S192x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x96 : Shape := ⟨2, ![50000, 96]⟩
abbrev S800000 : Shape := ⟨1, ![800000]⟩
abbrev S192x256 : Shape := ⟨2, ![192, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S96x256 : Shape := ⟨2, ![96, 256]⟩
abbrev S1x256 : Shape := ⟨2, ![1, 256]⟩
abbrev S1x40 : Shape := ⟨2, ![1, 40]⟩
abbrev S50000x40 : Shape := ⟨2, ![50000, 40]⟩
abbrev S1000x96 : Shape := ⟨2, ![1000, 96]⟩
abbrev S1000x40 : Shape := ⟨2, ![1000, 40]⟩
abbrev S1000x256 : Shape := ⟨2, ![1000, 256]⟩

abbrev nBuf : Space → Nat
  | .hbm => 44
  | .vmem => 13
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S192x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x40, .f32⟩
  | .hbm, ⟨8, _⟩ => ⟨S40, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x96, .f32⟩
  | .hbm, ⟨18, _⟩ => ⟨S_, .f32⟩
  | .hbm, ⟨19, _⟩ => ⟨S50000x96, .f32⟩
  | .hbm, ⟨20, _⟩ => ⟨S800000x1, .i32⟩
  | .hbm, ⟨21, _⟩ => ⟨S50000x96, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x96, .f32⟩
  | .hbm, ⟨33, _⟩ => ⟨S50000x96, .f32⟩
  | .hbm, ⟨34, _⟩ => ⟨S96x256, .f32⟩
  | .hbm, ⟨35, _⟩ => ⟨S96x256, .bf16⟩
  | .hbm, ⟨36, _⟩ => ⟨S96x256, .f32⟩
  | .hbm, ⟨37, _⟩ => ⟨S96x256, .bf16⟩
  | .hbm, ⟨38, _⟩ => ⟨S256x256, .bf16⟩
  | .hbm, ⟨39, _⟩ => ⟨S256x40, .bf16⟩
  | .hbm, ⟨40, _⟩ => ⟨S1x256, .f32⟩
  | .hbm, ⟨41, _⟩ => ⟨S1x256, .f32⟩
  | .hbm, ⟨42, _⟩ => ⟨S1x40, .f32⟩
  | .hbm, ⟨43, _⟩ => ⟨S50000x40, .f32⟩
  | .local _ .vmem, ⟨0, _⟩ => ⟨S1000x96, .f32⟩
  | .local _ .vmem, ⟨1, _⟩ => ⟨S1000x96, .f32⟩
  | .local _ .vmem, ⟨2, _⟩ => ⟨S1000x96, .f32⟩
  | .local _ .vmem, ⟨3, _⟩ => ⟨S1000x96, .f32⟩
  | .local _ .vmem, ⟨4, _⟩ => ⟨S96x256, .bf16⟩
  | .local _ .vmem, ⟨5, _⟩ => ⟨S96x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S256x40, .bf16⟩
  | .local _ .vmem, ⟨10, _⟩ => ⟨S1x40, .f32⟩
  | .local _ .vmem, ⟨11, _⟩ => ⟨S1000x40, .f32⟩
  | .local _ .vmem, ⟨12, _⟩ => ⟨S1000x40, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x40 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  slices_S192x256_S96x256_0_0 : S192x256.Slices ![0, 0] S96x256
  bitsLt_bf16_f32 : FTy.bits .bf16 < FTy.bits .f32
  slices_S192x256_S96x256_96_0 : S192x256.Slices ![96, 0] S96x256
  shapeCasts_S256_S1x256 : S256.ShapeCasts S1x256
  shapeCasts_S40_S1x40 : S40.ShapeCasts S1x40
  inb_S1000x96_S1000x96_0_0 : ∀ a, (![0, 0] : Fin 2 → Nat) a + S1000x96.size a ≤ S1000x96.size a
  h_S1000x96 : 0 < S1000x96.numel
  shapeCasts_S1000x96_S1000x96 : S1000x96.ShapeCasts S1000x96
  inb_S96x256_S96x256_0_0 : ∀ a, (![0, 0] : Fin 2 → Nat) a + S96x256.size a ≤ S96x256.size a
  h_S96x256 : 0 < S96x256.numel
  shapeCasts_S96x256_S96x256 : S96x256.ShapeCasts S96x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1000x40 : S1x40.Broadcasts S1000x40
  inb_S1000x40_S1000x40_0_0 : ∀ a, (![0, 0] : Fin 2 → Nat) a + S1000x40.size a ≤ S1000x40.size a
  h_S1000x40 : 0 < S1000x40.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S1000x96_S96x256_S1000x256_1_0_0_1_n_n_wf : DotDims.WF S1000x96 S96x256 S1000x256 [1] [0] [0] [1] [] []
  dot_S1000x256_S256x256_S1000x256_1_0_0_1_n_n_wf : DotDims.WF S1000x256 S256x256 S1000x256 [1] [0] [0] [1] [] []
  dot_S1000x256_S256x40_S1000x40_1_0_0_1_n_n_wf : DotDims.WF S1000x256 S256x40 S1000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x96.size a ≤ S50000x96.size a
  hwx0_0 : ∀ i : grid0.Coords, EltTy.bits .f32 = 32 ∨ (Rect.block (s := S50000x96) S1000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x96.size a ≤ S50000x96.size a
  hwx0_1 : ∀ i : grid0.Coords, EltTy.bits .f32 = 32 ∨ (Rect.block (s := S50000x96) S1000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x256.size a ≤ S96x256.size a
  hwx0_2 : ∀ i : grid0.Coords, EltTy.bits .bf16 = 32 ∨ (Rect.block (s := S96x256) S96x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x256.size a ≤ S96x256.size a
  hwx0_3 : ∀ i : grid0.Coords, EltTy.bits .bf16 = 32 ∨ (Rect.block (s := S96x256) S96x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x40.size a ≤ S256x40.size a
  hwx0_7 : ∀ i : grid0.Coords, EltTy.bits .bf16 = 32 ∨ (Rect.block (s := S256x40) S256x40.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x40.size a ≤ S1x40.size a
  hwx0_8 : ∀ i : grid0.Coords, EltTy.bits .f32 = 32 ∨ (Rect.block (s := S1x40) S1x40.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x40.size a ≤ S50000x40.size a
  hwx0_9 : ∀ i : grid0.Coords, EltTy.bits .f32 = 32 ∨ (Rect.block (s := S50000x40) S1000x40.size (cc0_transform_9 i) (hinb0_9 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x96_S96x256_S1000x256_1_0_0_1_n_n : DotDims S1000x96 S96x256 S1000x256 where
  lhsContracting := [1]
  rhsContracting := [0]
  lhsNonContracting := [0]
  rhsNonContracting := [1]
  lhsBatch := []
  rhsBatch := []
  wf := dot_S1000x96_S96x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x40_S1000x40_1_0_0_1_n_n : DotDims S1000x256 S256x40 S1000x40 where
  lhsContracting := [1]
  rhsContracting := [0]
  lhsNonContracting := [0]
  rhsNonContracting := [1]
  lhsBatch := []
  rhsBatch := []
  wf := dot_S1000x256_S256x40_S1000x40_1_0_0_1_n_n_wf

abbrev win0_0 : Pipeline.Window sig grid0 :=
  Pipeline.Window.ofSpec (Memref.whole main_arg0) S1000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S96x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S96x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S256x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1000x40.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000 : Shape := ⟨1, ![800000]⟩
abbrev S192x256 : Shape := ⟨2, ![192, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S50000x192 : Shape := ⟨2, ![50000, 192]⟩
abbrev S50000x256 : Shape := ⟨2, ![50000, 256]⟩
abbrev S1x256 : Shape := ⟨2, ![1, 256]⟩
abbrev S50000x40 : Shape := ⟨2, ![50000, 40]⟩
abbrev S1x40 : Shape := ⟨2, ![1, 40]⟩

abbrev nBuf : Space → Nat
  | .hbm => 53
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S192x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x40, .f32⟩
  | .hbm, ⟨8, _⟩ => ⟨S40, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x96, .f32⟩
  | .hbm, ⟨18, _⟩ => ⟨S_, .f32⟩
  | .hbm, ⟨19, _⟩ => ⟨S50000x96, .f32⟩
  | .hbm, ⟨20, _⟩ => ⟨S800000x1, .i32⟩
  | .hbm, ⟨21, _⟩ => ⟨S50000x96, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x96, .f32⟩
  | .hbm, ⟨33, _⟩ => ⟨S50000x96, .f32⟩
  | .hbm, ⟨34, _⟩ => ⟨S50000x192, .f32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S50000x40, .f32⟩
  | .hbm, ⟨50, _⟩ => ⟨S1x40, .f32⟩
  | .hbm, ⟨51, _⟩ => ⟨S50000x40, .f32⟩
  | .hbm, ⟨52, _⟩ => ⟨S50000x40, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  concatenates_S50000x96_S50000x96_S50000x192_d1 : Shape.Concatenates [S50000x96, S50000x96] S50000x192 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x192_S192x256_S50000x256_1_0_0_1_n_n_wf : DotDims.WF S50000x192 S192x256 S50000x256 [1] [0] [0] [1] [] []
  dot_S50000x256_S256x256_S50000x256_1_0_0_1_n_n_wf : DotDims.WF S50000x256 S256x256 S50000x256 [1] [0] [0] [1] [] []
  dot_S50000x256_S256x40_S50000x40_1_0_0_1_n_n_wf : DotDims.WF S50000x256 S256x40 S50000x40 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x192_S192x256_S50000x256_1_0_0_1_n_n : DotDims S50000x192 S192x256 S50000x256 where
  lhsContracting := [1]
  rhsContracting := [0]
  lhsNonContracting := [0]
  rhsNonContracting := [1]
  lhsBatch := []
  rhsBatch := []
  wf := dot_S50000x192_S192x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.NodeMlp.lean ====
/-
  The three-layer perceptron applied to one node, on the extended reals.

  A node carries two rows of 96 numbers: its own features `fr` and the mean `nr` of its in-neighbours'
  features. The first layer multiplies the 192 numbers `[fr, nr]` by a 192 x 256 matrix; splitting that matrix
  into its upper 96 rows `Wa` and its lower 96 rows `Wb`, the product is `fr * Wa + nr * Wb`. Each hidden layer
  adds a bias and clamps below at zero; the output layer adds a bias only.

  Everything here is stated with sums in the commutative additive monoid of the extended reals: a sum over 192
  indices is the sum over the first 96 plus the sum over the last 96 (`sum_split`), with no distributivity and no
  cancellation, so no finiteness of the entries is used anywhere.
-/
import Idealize.ShloMosaic.PureOps.Ideal
import Idealize.ShloMosaic.Lib.ValueIdx
import Mathlib.Algebra.BigOperators.Fin

noncomputable section

namespace Cert.NodeMlp

open Idealize.ShloMosaic Idealize.ShloMosaic.ValueIdx

/-- Row `k` of the upper half of a 192-row matrix. -/
def lo (k : Fin 96) : Fin 192 := ⟨k.val, by have := k.isLt; omega⟩
/-- Row `k` of the lower half of a 192-row matrix: row `96 + k` of the whole. -/
def hi (k : Fin 96) : Fin 192 := ⟨96 + k.val, by have := k.isLt; omega⟩

/-- A sum over 192 indices is the sum over the first 96 plus the sum over the last 96. -/
theorem sum_split {M : Type*} [AddCommMonoid M] (g : Fin 192 → M) :
    ∑ k : Fin 192, g k = ∑ k : Fin 96, g (lo k) + ∑ k : Fin 96, g (hi k) :=
  Fin.sum_univ_add (a := 96) (b := 96) g

/-- The value the clamp compares with: the float word of zero, kept as its word. -/
abbrev floor0 : EReal := Ideal.ofBits .f32 0x00000000#32

/-- First hidden layer at unit `j`: `max (fr * Wa + nr * Wb + b1) 0`. -/
def hidden1 (fr nr : Fin 96 → EReal) (Wa Wb : Fin 96 → Fin 256 → EReal) (b1 : Fin 256 → EReal) (j : Fin 256) : EReal :=
  max (((∑ k : Fin 96, fr k * Wa k j) + (∑ k : Fin 96, nr k * Wb k j)) + b1 j) floor0

/-- Second hidden layer at unit `j`: `max (h * W2 + b2) 0`. -/
def hidden2 (h : Fin 256 → EReal) (W2 : Fin 256 → Fin 256 → EReal) (b2 : Fin 256 → EReal) (j : Fin 256) : EReal :=
  max ((∑ k : Fin 256, h k * W2 k j) + b2 j) floor0

/-- Output layer at class `o`: `h * W3 + b3`. -/
def outRow (h : Fin 256 → EReal) (W3 : Fin 256 → Fin 40 → EReal) (b3 : Fin 40 → EReal) (o : Fin 40) : EReal :=
  (∑ k : Fin 256, h k * W3 k o) + b3 o

/-- The perceptron's 40 outputs for one node. -/
def mlpRow (fr nr : Fin 96 → EReal) (Wa Wb : Fin 96 → Fin 256 → EReal) (b1 : Fin 256 → EReal)
    (W2 : Fin 256 → Fin 256 → EReal) (b2 : Fin 256 → EReal) (W3 : Fin 256 → Fin 40 → EReal) (b3 : Fin 40 → EReal) :
    Fin 40 → EReal :=
  outRow (hidden2 (hidden1 fr nr Wa Wb b1) W2 b2) W3 b3

/-- THE RESULT as one function of the arrays: entry `(r, o)` is output `o` of the perceptron on node `r`'s feature
    row and neighbour-mean row, the first weight matrix read as its upper and lower halves. -/
def G (feat nbr : (⟨2, ![50000, 96]⟩ : Shape).Idx → EReal) (W1 : (⟨2, ![192, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![256, 40]⟩ : Shape).Idx → EReal)
    (b3 : (⟨1, ![40]⟩ : Shape).Idx → EReal) : (⟨2, ![50000, 40]⟩ : Shape).Idx → EReal :=
  fun i => mlpRow (fun k => feat (ix2 (i 0) k)) (fun k => nbr (ix2 (i 0) k))
    (fun k j => W1 (ix2 (lo k) j)) (fun k j => W1 (ix2 (hi k) j)) (fun j => b1 (ix1 j))
    (fun k j => W2 (ix2 k j)) (fun j => b2 (ix1 j)) (fun k j => W3 (ix2 k j)) (fun o => b3 (ix1 o)) (i 1)

/-- `G` at row `r`, column `o`. -/
theorem G_apply (feat nbr : (⟨2, ![50000, 96]⟩ : Shape).Idx → EReal) (W1 : (⟨2, ![192, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![256, 40]⟩ : Shape).Idx → EReal)
    (b3 : (⟨1, ![40]⟩ : Shape).Idx → EReal) (r : Fin 50000) (o : Fin 40) :
    G feat nbr W1 b1 W2 b2 W3 b3 (ix2 r o)
      = outRow (hidden2 (hidden1 (fun k => feat (ix2 r k)) (fun k => nbr (ix2 r k))
          (fun k j => W1 (ix2 (lo k) j)) (fun k j => W1 (ix2 (hi k) j)) (fun j => b1 (ix1 j)))
          (fun k j => W2 (ix2 k j)) (fun j => b2 (ix1 j))) (fun k j => W3 (ix2 k j)) (fun o => b3 (ix1 o)) o := rfl

end Cert.NodeMlp

end
-- ==== Proof.RefValue.lean ====
/-
  The reference's result, read index by index, is the perceptron `G` of the feature array and the
  neighbour-mean array.

  The reference joins each node's feature row and neighbour-mean row into one row of 192 numbers and multiplies
  by the whole 192 x 256 matrix. Column `k < 96` of the joined row is the feature row's column `k`, column
  `96 + k` is the neighbour-mean row's column `k`; so the sum over the 192 columns, split at 96, is the feature
  row against the matrix's upper half plus the neighbour-mean row against its lower half. The two later layers
  are plain matrix products with a bias, read as sums over their 256 columns.
-/
import proofs.«109867_j59133109732151_1_alg».proof.Proof.Gen.ReferenceIdeal.Read
import proofs.«109867_j59133109732151_1_alg».proof.Proof.NodeMlp

noncomputable section

namespace Cert.ReferenceIdeal.RefValue

open Cert.ReferenceIdeal Cert.ReferenceIdeal.Read Idealize.ShloMosaic Idealize.ShloMosaic.ValueIdx Cert.NodeMlp

/-! ## Where each operation reads its operands: the composed index maps, in coordinates -/

theorem lidx20 (r : Fin 50000) (j : Fin 256) (k : Fin 192) : lidx_main_v20 (ix2 r j) k = ix2 r k :=
  funext fun a => Fin.ext (by match a with | ⟨0, _⟩ => rfl | ⟨1, _⟩ => rfl)
theorem ridx20 (r : Fin 50000) (j : Fin 256) (k : Fin 192) : ridx_main_v20 (ix2 r j) k = ix2 k j :=
  funext fun a => Fin.ext (by match a with | ⟨0, _⟩ => rfl | ⟨1, _⟩ => rfl)
theorem bias1 (r : Fin 50000) (j : Fin 256) : idx_main_v21 (idx_main_v22 (ix2 r j)) = ix1 j :=
  funext fun a => Fin.ext (by match a with | ⟨0, _⟩ => rfl)
theorem lidx25 (r : Fin 50000) (j : Fin 256) (k : Fin 256) : lidx_main_v25 (ix2 r j) k = ix2 r k :=
  funext fun a => Fin.ext (by match a with | ⟨0, _⟩ => rfl | ⟨1, _⟩ => rfl)
theorem ridx25 (r : Fin 50000) (j : Fin 256) (k : Fin 256) : ridx_main_v25 (ix2 r j) k = ix2 k j :=
  funext fun a => Fin.ext (by match a with | ⟨0, _⟩ => rfl | ⟨1, _⟩ => rfl)
theorem bias2 (r : Fin 50000) (j : Fin 256) : idx_main_v26 (idx_main_v27 (ix2 r j)) = ix1 j :=
  funext fun a => Fin.ext (by match a with | ⟨0, _⟩ => rfl)
theorem lidx30 (r : Fin 50000) (o : Fin 40) (k : Fin 256) : lidx_main_v30 (ix2 r o) k = ix2 r k :=
  funext fun a => Fin.ext (by match a with | ⟨0, _⟩ => rfl | ⟨1, _⟩ => rfl)
theorem ridx30 (r : Fin 50000) (o : Fin 40) (k : Fin 256) : ridx_main_v30 (ix2 r o) k = ix2 k o :=
  funext fun a => Fin.ext (by match a with | ⟨0, _⟩ => rfl | ⟨1, _⟩ => rfl)
theorem bias3 (r : Fin 50000) (o : Fin 40) : idx_main_v31 (idx_main_v32 (ix2 r o)) = ix1 o :=
  funext fun a => Fin.ext (by match a with | ⟨0, _⟩ => rfl)

variable (x0 : (⟨S50000x96, .f32⟩ : BufTy).Contents (Elt Ideal)) (x1 x2 : (⟨S800000, .i32⟩ : BufTy).Contents (Elt Ideal))
  (x3 : (⟨S192x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x40, .f32⟩ : BufTy).Contents (Elt Ideal)) (x8 : (⟨S40, .f32⟩ : BufTy).Contents (Elt Ideal))

/-! ## The joined row -/

/-- Column `k < 96` of node `r`'s joined row is column `k` of its feature row. -/
theorem joined_lo (r : Fin 50000) (k : Fin 96) :
    val_main_v19 (F := Ideal) x0 x1 x2 (ix2 r (lo k)) = x0 (ix2 r k) := by
  unfold val_main_v19
  exact concatenate_pair_apply_left 1 x0 _ _ (ix2 r (lo k)) rfl (ix2 r k)
    (fun b => by
      match b with
      | ⟨0, _⟩ => rfl
      | ⟨1, _⟩ => rfl)

/-- Column `96 + k` of node `r`'s joined row is column `k` of its neighbour-mean row. -/
theorem joined_hi (r : Fin 50000) (k : Fin 96) :
    val_main_v19 (F := Ideal) x0 x1 x2 (ix2 r (hi k)) = val_main_v18 (F := Ideal) x0 x1 x2 (ix2 r k) := by
  unfold val_main_v19
  exact concatenate_pair_apply_right 1 x0 (val_main_v18 (F := Ideal) x0 x1 x2) _ (ix2 r (hi k)) rfl rfl (ix2 r k)
    (fun b hb => by
      match b with
      | ⟨0, _⟩ => rfl
      | ⟨1, _⟩ => exact absurd rfl hb)
    (show k.val + 96 = 96 + k.val from Nat.add_comm _ _)

/-! ## The three layers -/

/-- The first hidden layer of node `r` at unit `j`. -/
theorem layer1_apply (r : Fin 50000) (j : Fin 256) :
    val_main_v24 (F := Ideal) x0 x1 x2 x3 x4 (ix2 r j)
      = hidden1 (fun k => x0 (ix2 r k)) (fun k => val_main_v18 (F := Ideal) x0 x1 x2 (ix2 r k))
          (fun k j => x3 (ix2 (lo k) j)) (fun k j => x3 (ix2 (hi k) j)) (fun j => x4 (ix1 j)) j := by
  rw [val_main_v24_apply, val_main_v23_apply, val_main_v20_apply, val_main_v22_apply, val_main_v21_apply,
    val_main_call0_v0_apply, val_main_call0_cst_apply, sum_split]
  simp only [lidx20, ridx20, bias1, joined_lo, joined_hi]
  rfl

/-- The second hidden layer of node `r` at unit `j`. -/
theorem layer2_apply (r : Fin 50000) (j : Fin 256) :
    val_main_v29 (F := Ideal) x0 x1 x2 x3 x4 x5 x6 (ix2 r j)
      = hidden2 (fun k => val_main_v24 (F := Ideal) x0 x1 x2 x3 x4 (ix2 r k)) (fun k j => x5 (ix2 k j)) (fun j => x6 (ix1 j)) j := by
  rw [val_main_v29_apply, val_main_v28_apply, val_main_v25_apply, val_main_v27_apply, val_main_v26_apply,
    val_main_call1_v0_apply, val_main_call1_cst_apply]
  simp only [lidx25, ridx25, bias2]
  rfl

/-- The output layer of node `r` at class `o`. -/
theorem layer3_apply (r : Fin 50000) (o : Fin 40) :
    val_main_v33 (F := Ideal) x0 x1 x2 x3 x4 x5 x6 x7 x8 (ix2 r o)
      = outRow (fun k => val_main_v29 (F := Ideal) x0 x1 x2 x3 x4 x5 x6 (ix2 r k)) (fun k o => x7 (ix2 k o)) (fun o => x8 (ix1 o)) o := by
  rw [val_main_v33_apply, val_main_v30_apply, val_main_v32_apply, val_main_v31_apply]
  simp only [lidx30, ridx30, bias3]
  rfl

/-- THE REFERENCE'S RESULT is the perceptron `G` of the features and of the reference's own neighbour means. -/
theorem result_eq :
    val_main_v33 (F := Ideal) x0 x1 x2 x3 x4 x5 x6 x7 x8
      = G x0 (val_main_v18 (F := Ideal) x0 x1 x2) x3 x4 x5 x6 x7 x8 := by
  funext i
  obtain ⟨r, o, rfl⟩ : ∃ (r : Fin 50000) (o : Fin 40), i = ix2 r o := ⟨i 0, i 1, eq_ix2 i⟩
  rw [layer3_apply, G_apply]
  refine congrArg (fun h => outRow h (fun k o => x7 (ix2 k o)) (fun o => x8 (ix1 o)) o) (funext fun k => ?_)
  rw [layer2_apply]
  refine congrArg (fun h => hidden2 h (fun k j => x5 (ix2 k j)) (fun j => x6 (ix1 j)) k) (funext fun k' => ?_)
  exact layer1_apply x0 x1 x2 x3 x4 r k'

end Cert.ReferenceIdeal.RefValue

end
-- ==== Proof.Entry.lean ====
/-
  What the kernel's launch finds in the arrays its windows stage, as functions of the program's arguments.

  Before the launch the host computes the neighbour means (index normalisation, a gather of the source rows, two
  scatter-additions by destination, a clamp of the degree at one, a division), cuts the first weight matrix into
  its upper and lower halves, changes the three matrices' float format, and lays each bias vector as a one-row
  matrix. The neighbour means are, operation for operation, the reference's own stage, so they are carried as
  that one function of the arguments and never opened. The rest are read at an index: a format change is the
  identity on extended reals, a cut from row 96 reads row `96 + k`, and a vector laid as one row reads the vector.
  Each array is first named as a whole function; only the named functions are read at an index.
-/
import proofs.«109867_j59133109732151_1_alg».proof.Proof.Gen.KernelIdeal.Frame
import proofs.«109867_j59133109732151_1_alg».proof.Proof.Gen.ReferenceIdeal.Read
import proofs.«109867_j59133109732151_1_alg».proof.Proof.NodeMlp
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.NodeMlp

variable (m : (ℓ : Loc nD τ sig) → Buf (Elt Ideal) ℓ) (c : Dev nD)

/-! ## The arrays, named -/

/-- The neighbour means of the program's arguments: the reference's stage of that name, at the kernel's arguments. -/
abbrev nbr : S50000x96.Idx → EReal :=
  Cert.ReferenceIdeal.Read.val_main_v18 (F := Ideal) (m ((c : Thread nD τ).loc main_arg0))
    (m ((c : Thread nD τ).loc main_arg1)) (m ((c : Thread nD τ).loc main_arg2))

/-- The upper half of the first weight matrix, in the narrower float format. -/
def w1a : S96x256.Idx → EReal :=
  truncf (F := Ideal) .bf16 (extractStridedSlice S96x256 ![0, 0] (m ((c : Thread nD τ).loc main_arg3)) slices_S192x256_S96x256_0_0) bitsLt_bf16_f32

/-- The lower half of the first weight matrix, in the narrower float format. -/
def w1b : S96x256.Idx → EReal :=
  truncf (F := Ideal) .bf16 (extractStridedSlice S96x256 ![96, 0] (m ((c : Thread nD τ).loc main_arg3)) slices_S192x256_S96x256_96_0) bitsLt_bf16_f32

/-- A 256-vector laid as one row. -/
def row256 (b : S256.Idx → EReal) : S1x256.Idx → EReal := shapeCast S1x256 b shapeCasts_S256_S1x256

/-- A 40-vector laid as one row. -/
def row40 (b : S40.Idx → EReal) : S1x40.Idx → EReal := shapeCast S1x40 b shapeCasts_S40_S1x40

/-! ## What each window's array holds at the launch -/

set_option maxRecDepth 8192 in
set_option maxHeartbeats 2000000 in
theorem V_nbr : (V m c main_v18 : S50000x96.Idx → EReal) = nbr m c := by
  dsimp only [Gen.V, Gen.hostOps0]
  after_results_simp
  rfl

theorem V_w1a : (V m c main_v20 : S96x256.Idx → EReal) = w1a m c := by
  unfold w1a; dsimp only [Gen.V, Gen.hostOps0]; after_results <;> rfl

theorem V_w1b : (V m c main_v22 : S96x256.Idx → EReal) = w1b m c := by
  unfold w1b; dsimp only [Gen.V, Gen.hostOps0]; after_results <;> rfl

theorem V_b1 : (V m c main_v25 : S1x256.Idx → EReal) = row256 (m ((c : Thread nD τ).loc main_arg4)) := by
  unfold row256; dsimp only [Gen.V, Gen.hostOps0]; after_results <;> rfl

theorem V_w2 : (V m c main_v23 : S256x256.Idx → EReal) = m ((c : Thread nD τ).loc main_arg5) := by
  dsimp only [Gen.V, Gen.hostOps0]; after_results <;> rfl

theorem V_b2 : (V m c main_v26 : S1x256.Idx → EReal) = row256 (m ((c : Thread nD τ).loc main_arg6)) := by
  unfold row256; dsimp only [Gen.V, Gen.hostOps0]; after_results <;> rfl

theorem V_w3 : (V m c main_v24 : S256x40.Idx → EReal) = m ((c : Thread nD τ).loc main_arg7) := by
  dsimp only [Gen.V, Gen.hostOps0]; after_results <;> rfl

theorem V_b3 : (V m c main_v27 : S1x40.Idx → EReal) = row40 (m ((c : Thread nD τ).loc main_arg8)) := by
  unfold row40; dsimp only [Gen.V, Gen.hostOps0]; after_results <;> rfl

/-! ## The named arrays at an index -/

/-- Row `k` of the upper half is row `k` of the first weight matrix. -/
theorem w1a_apply (k : Fin 96) (j : Fin 256) : w1a m c (ix2 k j) = m ((c : Thread nD τ).loc main_arg3) (ix2 (lo k) j) := by
  unfold w1a
  show extractStridedSlice S96x256 ![0, 0] (m ((c : Thread nD τ).loc main_arg3)) slices_S192x256_S96x256_0_0 (ix2 k j) = _
  exact slice2_axis0_apply 0 (m ((c : Thread nD τ).loc main_arg3)) slices_S192x256_S96x256_0_0 k j (lo k) (Nat.zero_add _).symm

/-- Row `k` of the lower half is row `96 + k` of the first weight matrix. -/
theorem w1b_apply (k : Fin 96) (j : Fin 256) : w1b m c (ix2 k j) = m ((c : Thread nD τ).loc main_arg3) (ix2 (hi k) j) := by
  unfold w1b
  show extractStridedSlice S96x256 ![96, 0] (m ((c : Thread nD τ).loc main_arg3)) slices_S192x256_S96x256_96_0 (ix2 k j) = _
  exact slice2_axis0_apply 96 (m ((c : Thread nD τ).loc main_arg3)) slices_S192x256_S96x256_96_0 k j (hi k) rfl

/-- A 256-vector laid as one row reads the vector. -/
theorem row256_apply (b : S256.Idx → EReal) (j : Fin 256) : row256 b (ix2 (0 : Fin 1) j) = b (ix1 j) := by
  unfold row256; exact shapeCast_a_1a_apply _ _ 0 j

/-- A 40-vector laid as one row reads the vector. -/
theorem row40_apply (b : S40.Idx → EReal) (o : Fin 40) : row40 b (ix2 (0 : Fin 1) o) = b (ix1 o) := by
  unfold row40; exact shapeCast_a_1a_apply _ _ 0 o

end Cert.KernelIdeal.Entry

end
-- ==== Proof.BlockValue.lean ====
/-
  What the kernel's body computes for one block of 1000 nodes, read entry by entry.

  The body multiplies the block's feature rows by the upper half of the first weight matrix and its
  neighbour-mean rows by the lower half, adds the two products and the bias row, clamps below at zero; multiplies
  by the second matrix, adds its bias row, clamps; multiplies by the third matrix. Each product starts from a zero
  accumulator, so at an entry it is the plain sum over the shared columns; the changes of float format around the
  products are the identity on extended reals; a bias is one row repeated down the block. Entry `(p, q)` of the
  result therefore depends on row `p` of the two inputs only, and is the perceptron's value for that row before
  the last bias is added.
-/
import proofs.«109867_j59133109732151_1_alg».proof.Proof.Gen.KernelIdeal.Skeleton
import proofs.«109867_j59133109732151_1_alg».proof.Proof.NodeMlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.NodeMlp

/-! ## The three matrix products at an entry -/

/-- The `[1000, 96] x [96, 256]` product's dimension record. -/
abbrev dA := dot_S1000x96_S96x256_S1000x256_1_0_0_1_n_n

theorem dA_lhs0 (i : S1000x256.Idx) (q : dA.contr.Idx) : (dA.lhsIdx i q 0).val = (i 0).val := by
  unfold DotDims.lhsIdx
  rw [dif_neg (show ¬(0 : Fin S1000x96.rank) ∈ dA.lhsBatch by decide), dif_pos (show (0 : Fin S1000x96.rank) ∈ dA.lhsNonContracting by decide)]
  rfl
theorem dA_rhs1 (i : S1000x256.Idx) (q : dA.contr.Idx) : (dA.rhsIdx i q 1).val = (i 1).val := by
  unfold DotDims.rhsIdx
  rw [dif_neg (show ¬(1 : Fin S96x256.rank) ∈ dA.rhsBatch by decide), dif_pos (show (1 : Fin S96x256.rank) ∈ dA.rhsNonContracting by decide)]
  rfl

/-- Into a zero accumulator the product at `(p, j)` is the sum over the 96 shared columns of row `p` of the left
    factor against column `j` of the right factor. -/
theorem dA_apply (l : FVec Ideal S1000x96 .bf16) (w : FVec Ideal S96x256 .bf16) (p : Fin 1000) (j : Fin 256) :
    matmul dA none l w (constant (F := Ideal) S1000x256 .f32 0x00000000#32) (ix2 p j) = ∑ k : Fin 96, l (ix2 p k) * w (ix2 k j) := by
  simp only [matmul]
  rw [Ideal.matmul_constant_zero_apply, ← Equiv.sum_comp (contrEquiv1 dA 96 rfl rfl).symm]
  refine Finset.sum_congr rfl fun k _ => ?_
  have hk := contrEquiv1_symm_val dA 96 rfl rfl k
  have el : dA.lhsIdx (ix2 p j) ((contrEquiv1 dA 96 rfl rfl).symm k) = ix2 p k := funext fun a => Fin.ext (by
    match a with
    | ⟨0, _⟩ => exact dA_lhs0 _ _
    | ⟨1, _⟩ => exact (dA.lhsIdx_val_of_single rfl _ _).trans hk)
  have er : dA.rhsIdx (ix2 p j) ((contrEquiv1 dA 96 rfl rfl).symm k) = ix2 k j := funext fun a => Fin.ext (by
    match a with
    | ⟨0, _⟩ => exact (dA.rhsIdx_val_of_single rfl _ _).trans hk
    | ⟨1, _⟩ => exact dA_rhs1 _ _)
  rw [el, er]

/-- The `[1000, 256] x [256, 256]` product's dimension record. -/
abbrev dB := dot_S1000x256_S256x256_S1000x256_1_0_0_1_n_n

theorem dB_lhs0 (i : S1000x256.Idx) (q : dB.contr.Idx) : (dB.lhsIdx i q 0).val = (i 0).val := by
  unfold DotDims.lhsIdx
  rw [dif_neg (show ¬(0 : Fin S1000x256.rank) ∈ dB.lhsBatch by decide), dif_pos (show (0 : Fin S1000x256.rank) ∈ dB.lhsNonContracting by decide)]
  rfl
theorem dB_rhs1 (i : S1000x256.Idx) (q : dB.contr.Idx) : (dB.rhsIdx i q 1).val = (i 1).val := by
  unfold DotDims.rhsIdx
  rw [dif_neg (show ¬(1 : Fin S256x256.rank) ∈ dB.rhsBatch by decide), dif_pos (show (1 : Fin S256x256.rank) ∈ dB.rhsNonContracting by decide)]
  rfl

/-- Into a zero accumulator the product at `(p, j)` is the sum over the 256 shared columns of row `p` of the left
    factor against column `j` of the right factor. -/
theorem dB_apply (l : FVec Ideal S1000x256 .bf16) (w : FVec Ideal S256x256 .bf16) (p : Fin 1000) (j : Fin 256) :
    matmul dB none l w (constant (F := Ideal) S1000x256 .f32 0x00000000#32) (ix2 p j) = ∑ k : Fin 256, l (ix2 p k) * w (ix2 k j) := by
  simp only [matmul]
  rw [Ideal.matmul_constant_zero_apply, ← Equiv.sum_comp (contrEquiv1 dB 256 rfl rfl).symm]
  refine Finset.sum_congr rfl fun k _ => ?_
  have hk := contrEquiv1_symm_val dB 256 rfl rfl k
  have el : dB.lhsIdx (ix2 p j) ((contrEquiv1 dB 256 rfl rfl).symm k) = ix2 p k := funext fun a => Fin.ext (by
    match a with
    | ⟨0, _⟩ => exact dB_lhs0 _ _
    | ⟨1, _⟩ => exact (dB.lhsIdx_val_of_single rfl _ _).trans hk)
  have er : dB.rhsIdx (ix2 p j) ((contrEquiv1 dB 256 rfl rfl).symm k) = ix2 k j := funext fun a => Fin.ext (by
    match a with
    | ⟨0, _⟩ => exact (dB.rhsIdx_val_of_single rfl _ _).trans hk
    | ⟨1, _⟩ => exact dB_rhs1 _ _)
  rw [el, er]

/-- The `[1000, 256] x [256, 40]` product's dimension record. -/
abbrev dC := dot_S1000x256_S256x40_S1000x40_1_0_0_1_n_n

theorem dC_lhs0 (i : S1000x40.Idx) (q : dC.contr.Idx) : (dC.lhsIdx i q 0).val = (i 0).val := by
  unfold DotDims.lhsIdx
  rw [dif_neg (show ¬(0 : Fin S1000x256.rank) ∈ dC.lhsBatch by decide), dif_pos (show (0 : Fin S1000x256.rank) ∈ dC.lhsNonContracting by decide)]
  rfl
theorem dC_rhs1 (i : S1000x40.Idx) (q : dC.contr.Idx) : (dC.rhsIdx i q 1).val = (i 1).val := by
  unfold DotDims.rhsIdx
  rw [dif_neg (show ¬(1 : Fin S256x40.rank) ∈ dC.rhsBatch by decide), dif_pos (show (1 : Fin S256x40.rank) ∈ dC.rhsNonContracting by decide)]
  rfl

/-- Into a zero accumulator the product at `(p, j)` is the sum over the 256 shared columns of row `p` of the left
    factor against column `j` of the right factor. -/
theorem dC_apply (l : FVec Ideal S1000x256 .bf16) (w : FVec Ideal S256x40 .bf16) (p : Fin 1000) (j : Fin 40) :
    matmul dC none l w (constant (F := Ideal) S1000x40 .f32 0x00000000#32) (ix2 p j) = ∑ k : Fin 256, l (ix2 p k) * w (ix2 k j) := by
  simp only [matmul]
  rw [Ideal.matmul_constant_zero_apply, ← Equiv.sum_comp (contrEquiv1 dC 256 rfl rfl).symm]
  refine Finset.sum_congr rfl fun k _ => ?_
  have hk := contrEquiv1_symm_val dC 256 rfl rfl k
  have el : dC.lhsIdx (ix2 p j) ((contrEquiv1 dC 256 rfl rfl).symm k) = ix2 p k := funext fun a => Fin.ext (by
    match a with
    | ⟨0, _⟩ => exact dC_lhs0 _ _
    | ⟨1, _⟩ => exact (dC.lhsIdx_val_of_single rfl _ _).trans hk)
  have er : dC.rhsIdx (ix2 p j) ((contrEquiv1 dC 256 rfl rfl).symm k) = ix2 k j := funext fun a => Fin.ext (by
    match a with
    | ⟨0, _⟩ => exact (dC.rhsIdx_val_of_single rfl _ _).trans hk
    | ⟨1, _⟩ => exact dC_rhs1 _ _)
  rw [el, er]

/-! ## The layers as the body spells them -/

variable (P0 P1 : FVec Ideal S1000x96 .f32) (P2 P3 : FVec Ideal S96x256 .bf16) (P4 : FVec Ideal S1x256 .f32)
  (P5 : FVec Ideal S256x256 .bf16) (P6 : FVec Ideal S1x256 .f32) (P7 : FVec Ideal S256x40 .bf16)

/-- The block's first hidden activations, as the body's operations of its loads. -/
def act1 : FVec Ideal S1000x256 .f32 :=
  maximumf (addf (addf
      (matmul dA none (truncf .bf16 P0 bitsLt_bf16_f32) (shapeCast S96x256 P2 shapeCasts_S96x256_S96x256) (constant S1000x256 .f32 0x00000000#32))
      (matmul dA none (truncf .bf16 (shapeCast S1000x96 P1 shapeCasts_S1000x96_S1000x96) bitsLt_bf16_f32) (shapeCast S96x256 P3 shapeCasts_S96x256_S96x256) (constant S1000x256 .f32 0x00000000#32)))
      (broadcastTo S1000x256 (shapeCast S1x256 P4 shapeCasts_S1x256_S1x256) broadcasts_S1x256_S1000x256))
    (broadcast S1000x256 (Scalar.ofBits .f32 0x00000000#32))

/-- The block's second hidden activations, from the first. -/
def act2 (h : FVec Ideal S1000x256 .f32) : FVec Ideal S1000x256 .f32 :=
  maximumf (addf
      (matmul dB none (truncf .bf16 h bitsLt_bf16_f32) (shapeCast S256x256 P5 shapeCasts_S256x256_S256x256) (constant S1000x256 .f32 0x00000000#32))
      (broadcastTo S1000x256 (shapeCast S1x256 P6 shapeCasts_S1x256_S1x256) broadcasts_S1x256_S1000x256))
    (broadcast S1000x256 (Scalar.ofBits .f32 0x00000000#32))

/-- The body's last product is the third matrix applied to the second activations of the first. -/
theorem pay2_eq : k0_pay2 P0 P1 P2 P3 P4 P5 P6 P7
    = matmul dC none (truncf .bf16 (act2 P5 P6 (act1 P0 P1 P2 P3 P4)) bitsLt_bf16_f32) (shapeCast S256x40 P7 shapeCasts_S256x40_S256x40) (constant S1000x40 .f32 0x00000000#32) := rfl

/-- Row `p`, unit `j` of the first activations is the perceptron's first hidden layer on row `p` of the two inputs. -/
theorem act1_apply (p : Fin 1000) (j : Fin 256) :
    act1 P0 P1 P2 P3 P4 (ix2 p j)
      = hidden1 (fun k => P0 (ix2 p k)) (fun k => P1 (ix2 p k)) (fun k j => P2 (ix2 k j)) (fun k j => P3 (ix2 k j))
          (fun j => P4 (ix2 (0 : Fin 1) j)) j := by
  unfold act1
  rw [maximumf_apply, addf_apply, addf_apply, dA_apply, dA_apply, shapeCast_self, shapeCast_self, shapeCast_self, shapeCast_self,
    broadcastTo_1b_ab_apply]
  rfl

/-- Row `p`, unit `j` of the second activations is the perceptron's second hidden layer on row `p` of the first. -/
theorem act2_apply (h : FVec Ideal S1000x256 .f32) (p : Fin 1000) (j : Fin 256) :
    act2 P5 P6 h (ix2 p j) = hidden2 (fun k => h (ix2 p k)) (fun k j => P5 (ix2 k j)) (fun j => P6 (ix2 (0 : Fin 1) j)) j := by
  unfold act2
  rw [maximumf_apply, addf_apply, dB_apply, shapeCast_self, shapeCast_self, broadcastTo_1b_ab_apply]
  rfl

/-- THE BODY'S LAST PRODUCT at `(p, q)`: the sum over the 256 hidden units of row `p`'s second hidden layer against
    column `q` of the third matrix. -/
theorem pay2_apply (p : Fin 1000) (q : Fin 40) :
    k0_pay2 (F := Ideal) P0 P1 P2 P3 P4 P5 P6 P7 (ix2 p q)
      = ∑ k : Fin 256, hidden2 (hidden1 (fun k => P0 (ix2 p k)) (fun k => P1 (ix2 p k)) (fun k j => P2 (ix2 k j))
            (fun k j => P3 (ix2 k j)) (fun j => P4 (ix2 (0 : Fin 1) j))) (fun k j => P5 (ix2 k j)) (fun j => P6 (ix2 (0 : Fin 1) j)) k
          * P7 (ix2 k q) := by
  rw [pay2_eq, dC_apply, shapeCast_self]
  refine Finset.sum_congr rfl fun k _ => congrArg (· * P7 (ix2 k q)) ?_
  refine (act2_apply P5 P6 _ p k).trans ?_
  refine congrArg (fun h => hidden2 h (fun k j => P5 (ix2 k j)) (fun j => P6 (ix2 (0 : Fin 1) j)) k) (funext fun k' => ?_)
  exact act1_apply P0 P1 P2 P3 P4 p k'

/-- WHAT THE BODY STORES at `(p, q)`: the last product plus the last bias row, that is the perceptron's output `q`
    for row `p` of the two input blocks. -/
theorem body_apply (P8 : FVec Ideal S1x40 .f32) (p : Fin 1000) (q : Fin 40) :
    k0_pay1 (F := Ideal) (k0_pay2 P0 P1 P2 P3 P4 P5 P6 P7) (k0_pay3 P8) (ix2 p q)
      = mlpRow (fun k => P0 (ix2 p k)) (fun k => P1 (ix2 p k)) (fun k j => P2 (ix2 k j)) (fun k j => P3 (ix2 k j))
          (fun j => P4 (ix2 (0 : Fin 1) j)) (fun k j => P5 (ix2 k j)) (fun j => P6 (ix2 (0 : Fin 1) j))
          (fun k j => P7 (ix2 k j)) (fun o => P8 (ix2 (0 : Fin 1) o)) q := by
  show k0_pay2 (F := Ideal) P0 P1 P2 P3 P4 P5 P6 P7 (ix2 p q)
      + broadcastTo S1000x40 (shapeCast S1x40 P8 shapeCasts_S1x40_S1x40) broadcasts_S1x40_S1000x40 (ix2 p q) = _
  rw [pay2_apply, shapeCast_self, broadcastTo_1b_ab_apply]
  rfl

/-- The same against whole arrays: if row `p` of the two input blocks is row `R` of the feature and neighbour-mean
    arrays, the two weight blocks are the upper and lower halves of the first matrix, and the other blocks are the
    other matrices and the bias vectors laid as rows, then the body stores entry `(R, q)` of `G` at `(p, q)`. -/
theorem point_eq (P8 : FVec Ideal S1x40 .f32)
    (feat nbr : (⟨2, ![50000, 96]⟩ : Shape).Idx → EReal) (W1 : (⟨2, ![192, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![256, 40]⟩ : Shape).Idx → EReal)
    (b3 : (⟨1, ![40]⟩ : Shape).Idx → EReal) (R : Fin 50000) (p : Fin 1000) (q : Fin 40)
    (h0 : ∀ k : Fin 96, P0 (ix2 p k) = feat (ix2 R k)) (h1 : ∀ k : Fin 96, P1 (ix2 p k) = nbr (ix2 R k))
    (h2 : ∀ (k : Fin 96) (j : Fin 256), P2 (ix2 k j) = W1 (ix2 (lo k) j))
    (h3 : ∀ (k : Fin 96) (j : Fin 256), P3 (ix2 k j) = W1 (ix2 (hi k) j))
    (h4 : ∀ j : Fin 256, P4 (ix2 (0 : Fin 1) j) = b1 (ix1 j))
    (h5 : ∀ (k : Fin 256) (j : Fin 256), P5 (ix2 k j) = W2 (ix2 k j))
    (h6 : ∀ j : Fin 256, P6 (ix2 (0 : Fin 1) j) = b2 (ix1 j))
    (h7 : ∀ (k : Fin 256) (o : Fin 40), P7 (ix2 k o) = W3 (ix2 k o))
    (h8 : ∀ o : Fin 40, P8 (ix2 (0 : Fin 1) o) = b3 (ix1 o)) :
    k0_pay1 (F := Ideal) (k0_pay2 P0 P1 P2 P3 P4 P5 P6 P7) (k0_pay3 P8) (ix2 p q)
      = G feat nbr W1 b1 W2 b2 W3 b3 (ix2 R q) := by
  rw [body_apply, G_apply]
  unfold mlpRow
  rw [funext h0, funext h1, funext fun k => funext (h2 k), funext fun k => funext (h3 k), funext h4,
    funext fun k => funext (h5 k), funext h6, funext fun k => funext (h7 k), funext h8]

end Cert.KernelIdeal.BlockValue

end
-- ==== Proof.KernelValue.lean ====
/-
  The kernel's result array after the launch, as one function of the program's arguments.

  The launch has 50 points; point `t` stages rows `1000 t … 1000 t + 999` of the feature array and of the
  neighbour-mean array, the whole of every weight and bias array, runs the body, and writes the body's 1000 x 40
  result back as rows `1000 t … 1000 t + 999` of the output. By the body's value at an entry, row `p` of that block
  is the perceptron of row `1000 t + p` of the two input arrays: block `t` of the output is block `t` of `G`. The 50
  blocks cover the 50000 rows (row `r` lies in block `r / 1000`), so the output array is `G`.
-/
import proofs.«109867_j59133109732151_1_alg».proof.Proof.Gen.KernelIdeal.Value
import proofs.«109867_j59133109732151_1_alg».proof.Proof.Entry
import proofs.«109867_j59133109732151_1_alg».proof.Proof.BlockValue

noncomputable section

namespace Cert.KernelIdeal.KernelValue

open Cert.KernelIdeal Cert.KernelIdeal.Gen Idealize.ShloMosaic Idealize.ShloMosaic.TcCoe Idealize.SL.Sem
open Idealize.ShloMosaic.ValueIdx Cert.NodeMlp
open Idealize.ShloMosaic.Pipeline (Dat)

variable (m : (ℓ : Loc nD τ sig) → Buf (Elt Ideal) ℓ) (ρ : Dev nD → PrngReg)

/-- THE RESULT: the perceptron `G` of the feature array, the neighbour means, and the weights and biases. -/
abbrev result (c : Dev nD) : S50000x40.Idx → EReal :=
  G (m ((c : Thread nD τ).loc main_arg0)) (Entry.nbr m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem hz : (![0, 0] : Fin 2 → Nat) = fun _ => 0 := funext fun a => by fin_cases a <;> rfl

/-! ## Which block each window stages at a point -/

/-- The index maps over the 50 points: the two row-tiled inputs and the output take block `(t, 0)`, the weights and
    biases block `(0, 0)`. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

/-- Entry `(p, k)` of the feature window's block at point `t` sits at row `1000 t + p` of the array. -/
theorem emb0 (t : Fin cfg0.N) (p : Fin 1000) (k : Fin 96) (R : Fin 50000) (hR : R.val = t.val * 1000 + p.val) :
    ((cfg0.win 0).blk t).view.emb (ix2 p k) = ix2 R k := by
  obtain ⟨a00, a01, a10, a11, a20, a21, a30, a31, a40, a41, a50, a51, a60, a61, a70, a71, a80, a81, a90, a91⟩ := idx_facts t
  funext d; apply Fin.ext
  match d with
  | ⟨0, _⟩ => show win0_0.index t (0 : Fin 2) * 1000 + 1 * p.val = R.val; omega
  | ⟨1, _⟩ => show win0_0.index t (1 : Fin 2) * 96 + 1 * k.val = k.val; omega

/-- Entry `(p, k)` of the neighbour-mean window's block at point `t` sits at row `1000 t + p` of the array. -/
theorem emb1 (t : Fin cfg0.N) (p : Fin 1000) (k : Fin 96) (R : Fin 50000) (hR : R.val = t.val * 1000 + p.val) :
    ((cfg0.win 1).blk t).view.emb (ix2 p k) = ix2 R k := by
  obtain ⟨a00, a01, a10, a11, a20, a21, a30, a31, a40, a41, a50, a51, a60, a61, a70, a71, a80, a81, a90, a91⟩ := idx_facts t
  funext d; apply Fin.ext
  match d with
  | ⟨0, _⟩ => show win0_1.index t (0 : Fin 2) * 1000 + 1 * p.val = R.val; omega
  | ⟨1, _⟩ => show win0_1.index t (1 : Fin 2) * 96 + 1 * k.val = k.val; omega

/-- The upper-half weight window's block is the whole array at every point. -/
theorem emb2 (t : Fin cfg0.N) (a : Fin 96) (b : Fin 256) : ((cfg0.win 2).blk t).view.emb (ix2 a b) = ix2 a b := by
  obtain ⟨a00, a01, a10, a11, a20, a21, a30, a31, a40, a41, a50, a51, a60, a61, a70, a71, a80, a81, a90, a91⟩ := idx_facts t
  funext d; apply Fin.ext
  match d with
  | ⟨0, _⟩ => show win0_2.index t (0 : Fin 2) * 96 + 1 * a.val = a.val; omega
  | ⟨1, _⟩ => show win0_2.index t (1 : Fin 2) * 256 + 1 * b.val = b.val; omega

/-- The lower-half weight window's block is the whole array at every point. -/
theorem emb3 (t : Fin cfg0.N) (a : Fin 96) (b : Fin 256) : ((cfg0.win 3).blk t).view.emb (ix2 a b) = ix2 a b := by
  obtain ⟨a00, a01, a10, a11, a20, a21, a30, a31, a40, a41, a50, a51, a60, a61, a70, a71, a80, a81, a90, a91⟩ := idx_facts t
  funext d; apply Fin.ext
  match d with
  | ⟨0, _⟩ => show win0_3.index t (0 : Fin 2) * 96 + 1 * a.val = a.val; omega
  | ⟨1, _⟩ => show win0_3.index t (1 : Fin 2) * 256 + 1 * b.val = b.val; omega

/-- The first bias window's block is the whole one-row array at every point. -/
theorem emb4 (t : Fin cfg0.N) (a : Fin 1) (b : Fin 256) : ((cfg0.win 4).blk t).view.emb (ix2 a b) = ix2 a b := by
  obtain ⟨a00, a01, a10, a11, a20, a21, a30, a31, a40, a41, a50, a51, a60, a61, a70, a71, a80, a81, a90, a91⟩ := idx_facts t
  funext d; apply Fin.ext
  match d with
  | ⟨0, _⟩ => show win0_4.index t (0 : Fin 2) * 1 + 1 * a.val = a.val; omega
  | ⟨1, _⟩ => show win0_4.index t (1 : Fin 2) * 256 + 1 * b.val = b.val; omega

/-- The second weight window's block is the whole array at every point. -/
theorem emb5 (t : Fin cfg0.N) (a : Fin 256) (b : Fin 256) : ((cfg0.win 5).blk t).view.emb (ix2 a b) = ix2 a b := by
  obtain ⟨a00, a01, a10, a11, a20, a21, a30, a31, a40, a41, a50, a51, a60, a61, a70, a71, a80, a81, a90, a91⟩ := idx_facts t
  funext d; apply Fin.ext
  match d with
  | ⟨0, _⟩ => show win0_5.index t (0 : Fin 2) * 256 + 1 * a.val = a.val; omega
  | ⟨1, _⟩ => show win0_5.index t (1 : Fin 2) * 256 + 1 * b.val = b.val; omega

/-- The second bias window's block is the whole one-row array at every point. -/
theorem emb6 (t : Fin cfg0.N) (a : Fin 1) (b : Fin 256) : ((cfg0.win 6).blk t).view.emb (ix2 a b) = ix2 a b := by
  obtain ⟨a00, a01, a10, a11, a20, a21, a30, a31, a40, a41, a50, a51, a60, a61, a70, a71, a80, a81, a90, a91⟩ := idx_facts t
  funext d; apply Fin.ext
  match d with
  | ⟨0, _⟩ => show win0_6.index t (0 : Fin 2) * 1 + 1 * a.val = a.val; omega
  | ⟨1, _⟩ => show win0_6.index t (1 : Fin 2) * 256 + 1 * b.val = b.val; omega

/-- The third weight window's block is the whole array at every point. -/
theorem emb7 (t : Fin cfg0.N) (a : Fin 256) (b : Fin 40) : ((cfg0.win 7).blk t).view.emb (ix2 a b) = ix2 a b := by
  obtain ⟨a00, a01, a10, a11, a20, a21, a30, a31, a40, a41, a50, a51, a60, a61, a70, a71, a80, a81, a90, a91⟩ := idx_facts t
  funext d; apply Fin.ext
  match d with
  | ⟨0, _⟩ => show win0_7.index t (0 : Fin 2) * 256 + 1 * a.val = a.val; omega
  | ⟨1, _⟩ => show win0_7.index t (1 : Fin 2) * 40 + 1 * b.val = b.val; omega

/-- The third bias window's block is the whole one-row array at every point. -/
theorem emb8 (t : Fin cfg0.N) (a : Fin 1) (b : Fin 40) : ((cfg0.win 8).blk t).view.emb (ix2 a b) = ix2 a b := by
  obtain ⟨a00, a01, a10, a11, a20, a21, a30, a31, a40, a41, a50, a51, a60, a61, a70, a71, a80, a81, a90, a91⟩ := idx_facts t
  funext d; apply Fin.ext
  match d with
  | ⟨0, _⟩ => show win0_8.index t (0 : Fin 2) * 1 + 1 * a.val = a.val; omega
  | ⟨1, _⟩ => show win0_8.index t (1 : Fin 2) * 40 + 1 * b.val = b.val; omega

/-- Entry `(p, q)` of the output window's block at point `t` sits at row `1000 t + p` of the output. -/
theorem emb9 (t : Fin cfg0.N) (p : Fin 1000) (q : Fin 40) (R : Fin 50000) (hR : R.val = t.val * 1000 + p.val) :
    ((cfg0.win 9).blk t).view.emb (ix2 p q) = ix2 R q := by
  obtain ⟨a00, a01, a10, a11, a20, a21, a30, a31, a40, a41, a50, a51, a60, a61, a70, a71, a80, a81, a90, a91⟩ := idx_facts t
  funext d; apply Fin.ext
  match d with
  | ⟨0, _⟩ => show win0_9.index t (0 : Fin 2) * 1000 + 1 * p.val = R.val; omega
  | ⟨1, _⟩ => show win0_9.index t (1 : Fin 2) * 40 + 1 * q.val = q.val; omega

/-! ## The blocks the body reads, entry by entry

Reading a block of any function `N` of the array's index at a block entry `y` gives `N` at the array index the entry
sits at; and the output window's block is taken whole. -/

theorem rd0 (t : Fin cfg0.N) (N : S50000x96.Idx → EReal) (y : S1000x96.Idx) (j : S50000x96.Idx)
    (h : ((cfg0.win 0).blk t).view.emb y = j) : ((cfg0.win 0).blk t).view.read (Elt Ideal) N y = N j := by
  subst h; rfl
theorem rd1 (t : Fin cfg0.N) (N : S50000x96.Idx → EReal) (y : S1000x96.Idx) (j : S50000x96.Idx)
    (h : ((cfg0.win 1).blk t).view.emb y = j) : ((cfg0.win 1).blk t).view.read (Elt Ideal) N y = N j := by
  subst h; rfl
theorem rd2 (t : Fin cfg0.N) (N : S96x256.Idx → EReal) (y : S96x256.Idx) (j : S96x256.Idx)
    (h : ((cfg0.win 2).blk t).view.emb y = j) : ((cfg0.win 2).blk t).view.read (Elt Ideal) N y = N j := by
  subst h; rfl
theorem rd3 (t : Fin cfg0.N) (N : S96x256.Idx → EReal) (y : S96x256.Idx) (j : S96x256.Idx)
    (h : ((cfg0.win 3).blk t).view.emb y = j) : ((cfg0.win 3).blk t).view.read (Elt Ideal) N y = N j := by
  subst h; rfl
theorem rd4 (t : Fin cfg0.N) (N : S1x256.Idx → EReal) (y : S1x256.Idx) (j : S1x256.Idx)
    (h : ((cfg0.win 4).blk t).view.emb y = j) : ((cfg0.win 4).blk t).view.read (Elt Ideal) N y = N j := by
  subst h; rfl
theorem rd5 (t : Fin cfg0.N) (N : S256x256.Idx → EReal) (y : S256x256.Idx) (j : S256x256.Idx)
    (h : ((cfg0.win 5).blk t).view.emb y = j) : ((cfg0.win 5).blk t).view.read (Elt Ideal) N y = N j := by
  subst h; rfl
theorem rd6 (t : Fin cfg0.N) (N : S1x256.Idx → EReal) (y : S1x256.Idx) (j : S1x256.Idx)
    (h : ((cfg0.win 6).blk t).view.emb y = j) : ((cfg0.win 6).blk t).view.read (Elt Ideal) N y = N j := by
  subst h; rfl
theorem rd7 (t : Fin cfg0.N) (N : S256x40.Idx → EReal) (y : S256x40.Idx) (j : S256x40.Idx)
    (h : ((cfg0.win 7).blk t).view.emb y = j) : ((cfg0.win 7).blk t).view.read (Elt Ideal) N y = N j := by
  subst h; rfl
theorem rd8 (t : Fin cfg0.N) (N : S1x40.Idx → EReal) (y : S1x40.Idx) (j : S1x40.Idx)
    (h : ((cfg0.win 8).blk t).view.emb y = j) : ((cfg0.win 8).blk t).view.read (Elt Ideal) N y = N j := by
  subst h; rfl
theorem rd9 (t : Fin cfg0.N) (N : S50000x40.Idx → EReal) (y : S1000x40.Idx) (j : S50000x40.Idx)
    (h : ((cfg0.win 9).blk t).view.emb y = j) : ((cfg0.win 9).blk t).view.read (Elt Ideal) N y = N j := by
  subst h; rfl

/-- The output window's block is written back whole. -/
theorem cut9 (t : Fin cfg0.N) (B : FVec Ideal S1000x40 .f32) : (cfg0.win 9).cut (grid0.coords t) B = B := rfl

/-! Each window's array is its named function of the arguments; a block entry is that function at the array index
the entry sits at: row `1000 t + p` for the two row-tiled inputs, the same index for the weights and biases. -/

variable (c : Dev nD) (t : Fin cfg0.N)

theorem read0 (p : Fin 1000) (k : Fin 96) (R : Fin 50000) (hR : R.val = t.val * 1000 + p.val) : iblk m c 0 t (ix2 p k) = (m ((c : Thread nD τ).loc main_arg0)) (ix2 R k) := by
  have e := V_main_arg0 m c
  unfold iblk
  generalize V m c = Vc at e ⊢
  have e' : (Vc (Pipeline.arrRef spec0 (0 : Fin cfg0.W)) : S50000x96.Idx → EReal) = (m ((c : Thread nD τ).loc main_arg0)) := e
  rw [e']
  exact rd0 t (m ((c : Thread nD τ).loc main_arg0)) (ix2 p k) (ix2 R k) (emb0 t p k R hR)

theorem read1 (p : Fin 1000) (k : Fin 96) (R : Fin 50000) (hR : R.val = t.val * 1000 + p.val) : iblk m c 1 t (ix2 p k) = Entry.nbr m c (ix2 R k) := by
  have e := Entry.V_nbr m c
  unfold iblk
  generalize V m c = Vc at e ⊢
  have e' : (Vc (Pipeline.arrRef spec0 (1 : Fin cfg0.W)) : S50000x96.Idx → EReal) = Entry.nbr m c := e
  rw [e']
  exact rd1 t (Entry.nbr m c) (ix2 p k) (ix2 R k) (emb1 t p k R hR)

theorem read2 (k : Fin 96) (j : Fin 256) : iblk m c 2 t (ix2 k j) = (m ((c : Thread nD τ).loc main_arg3)) (ix2 (lo k) j) := by
  have e := Entry.V_w1a m c
  unfold iblk
  generalize V m c = Vc at e ⊢
  have e' : (Vc (Pipeline.arrRef spec0 (2 : Fin cfg0.W)) : S96x256.Idx → EReal) = Entry.w1a m c := e
  rw [e']
  exact (rd2 t (Entry.w1a m c) (ix2 k j) (ix2 k j) (emb2 t k j)).trans (Entry.w1a_apply m c k j)

theorem read3 (k : Fin 96) (j : Fin 256) : iblk m c 3 t (ix2 k j) = (m ((c : Thread nD τ).loc main_arg3)) (ix2 (hi k) j) := by
  have e := Entry.V_w1b m c
  unfold iblk
  generalize V m c = Vc at e ⊢
  have e' : (Vc (Pipeline.arrRef spec0 (3 : Fin cfg0.W)) : S96x256.Idx → EReal) = Entry.w1b m c := e
  rw [e']
  exact (rd3 t (Entry.w1b m c) (ix2 k j) (ix2 k j) (emb3 t k j)).trans (Entry.w1b_apply m c k j)

theorem read4 (j : Fin 256) : iblk m c 4 t (ix2 (0 : Fin 1) j) = (m ((c : Thread nD τ).loc main_arg4)) (ix1 j) := by
  have e := Entry.V_b1 m c
  unfold iblk
  generalize V m c = Vc at e ⊢
  have e' : (Vc (Pipeline.arrRef spec0 (4 : Fin cfg0.W)) : S1x256.Idx → EReal) = Entry.row256 (m ((c : Thread nD τ).loc main_arg4)) := e
  rw [e']
  exact (rd4 t (Entry.row256 (m ((c : Thread nD τ).loc main_arg4))) (ix2 (0 : Fin 1) j) (ix2 (0 : Fin 1) j) (emb4 t 0 j)).trans (Entry.row256_apply _ j)

theorem read5 (k : Fin 256) (j : Fin 256) : iblk m c 5 t (ix2 k j) = (m ((c : Thread nD τ).loc main_arg5)) (ix2 k j) := by
  have e := Entry.V_w2 m c
  unfold iblk
  generalize V m c = Vc at e ⊢
  have e' : (Vc (Pipeline.arrRef spec0 (5 : Fin cfg0.W)) : S256x256.Idx → EReal) = (m ((c : Thread nD τ).loc main_arg5)) := e
  rw [e']
  exact rd5 t (m ((c : Thread nD τ).loc main_arg5)) (ix2 k j) (ix2 k j) (emb5 t k j)

theorem read6 (j : Fin 256) : iblk m c 6 t (ix2 (0 : Fin 1) j) = (m ((c : Thread nD τ).loc main_arg6)) (ix1 j) := by
  have e := Entry.V_b2 m c
  unfold iblk
  generalize V m c = Vc at e ⊢
  have e' : (Vc (Pipeline.arrRef spec0 (6 : Fin cfg0.W)) : S1x256.Idx → EReal) = Entry.row256 (m ((c : Thread nD τ).loc main_arg6)) := e
  rw [e']
  exact (rd6 t (Entry.row256 (m ((c : Thread nD τ).loc main_arg6))) (ix2 (0 : Fin 1) j) (ix2 (0 : Fin 1) j) (emb6 t 0 j)).trans (Entry.row256_apply _ j)

theorem read7 (k : Fin 256) (o : Fin 40) : iblk m c 7 t (ix2 k o) = (m ((c : Thread nD τ).loc main_arg7)) (ix2 k o) := by
  have e := Entry.V_w3 m c
  unfold iblk
  generalize V m c = Vc at e ⊢
  have e' : (Vc (Pipeline.arrRef spec0 (7 : Fin cfg0.W)) : S256x40.Idx → EReal) = (m ((c : Thread nD τ).loc main_arg7)) := e
  rw [e']
  exact rd7 t (m ((c : Thread nD τ).loc main_arg7)) (ix2 k o) (ix2 k o) (emb7 t k o)

theorem read8 (o : Fin 40) : iblk m c 8 t (ix2 (0 : Fin 1) o) = (m ((c : Thread nD τ).loc main_arg8)) (ix1 o) := by
  have e := Entry.V_b3 m c
  unfold iblk
  generalize V m c = Vc at e ⊢
  have e' : (Vc (Pipeline.arrRef spec0 (8 : Fin cfg0.W)) : S1x40.Idx → EReal) = Entry.row40 (m ((c : Thread nD τ).loc main_arg8)) := e
  rw [e']
  exact (rd8 t (Entry.row40 (m ((c : Thread nD τ).loc main_arg8))) (ix2 (0 : Fin 1) o) (ix2 (0 : Fin 1) o) (emb8 t 0 o)).trans (Entry.row40_apply _ o)

/-! ## Point `t` writes block `t` of `G` -/

/-- The body's result at `(p, q)` of point `t`'s block is `G` at row `1000 t + p`. -/
theorem point_value (p : Fin 1000) (q : Fin 40) (R : Fin 50000) (hR : R.val = t.val * 1000 + p.val) :
    k0_pay1 (F := Ideal) (k0_pay2 (iblk m c 0 t) (iblk m c 1 t) (iblk m c 2 t) (iblk m c 3 t) (iblk m c 4 t) (iblk m c 5 t)
        (iblk m c 6 t) (iblk m c 7 t)) (k0_pay3 (iblk m c 8 t)) (ix2 p q) = result m c (ix2 R q) :=
  BlockValue.point_eq (iblk m c 0 t) (iblk m c 1 t) (iblk m c 2 t) (iblk m c 3 t) (iblk m c 4 t) (iblk m c 5 t)
    (iblk m c 6 t) (iblk m c 7 t) (iblk m c 8 t) (m ((c : Thread nD τ).loc main_arg0)) (Entry.nbr m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R p q
    (fun k => read0 m c t p k R hR) (fun k => read1 m c t p k R hR) (read2 m c t) (read3 m c t) (read4 m c t)
    (read5 m c t) (read6 m c t) (read7 m c t) (read8 m c t)

/-- WHAT POINT `t` WRITES BACK is block `t` of the result. -/
theorem flushed_eq : (dats m 0 c).flushed 9 t = ((cfg0.win 9).blk t).view.read (Elt Ideal) (result m c) := by
  rw [Value.flushed9]
  unfold out0_9
  rw [View.canon_unit_zero hz]
  simp only [View.ld_unit_zero (S := S1000x96) hz, View.ld_unit_zero (S := S96x256) hz, View.ld_unit_zero (S := S1x256) hz,
    View.ld_unit_zero (S := S256x256) hz, View.ld_unit_zero (S := S256x40) hz, View.ld_unit_zero (S := S1x40) hz]
  rw [cut9 t]
  funext y
  obtain ⟨p, q, rfl⟩ : ∃ (p : Fin 1000) (q : Fin 40), y = ix2 p q := ⟨y 0, y 1, eq_ix2 y⟩
  have hN : grid0.N = 50 := N_0
  have ht : t.val < 50 := by have h : t.val < grid0.N := t.isLt; omega
  have hp : p.val < 1000 := p.isLt
  exact (point_value m c t p q ⟨t.val * 1000 + p.val, by omega⟩ rfl).trans
    (rd9 t (result m c) (ix2 p q) (ix2 ⟨t.val * 1000 + p.val, by omega⟩ q) (emb9 t p q ⟨t.val * 1000 + p.val, by omega⟩ rfl)).symm

/-! ## The 50 blocks cover the output -/

/-- An index of the output is in point `t`'s block iff each coordinate is in the block's range on its axis. -/
theorem mem_blk (i : S50000x40.Idx) :
    i ∈ ((cfg0.win 9).blk t).view.set ↔ ∀ a : Fin 2, win0_9.index t a * S1000x40.size a ≤ (i a).val ∧ (i a).val < win0_9.index t a * S1000x40.size a + S1000x40.size a := by
  show i ∈ ((View.whole main_v28).slice (win0_9.rect t)).set ↔ _
  rw [View.set_slice_whole, Rect.mem_set_unit]
  exact Iff.rfl

/-- Row `r` of the output lies in the block of point `r / 1000`. -/
theorem cover (i : S50000x40.Idx) : ∃ t : Fin cfg0.N, (cfg0.win 9).flush t = true ∧ i ∈ ((cfg0.win 9).blk t).view.set := by
  have hi0 : (i 0).val < 50000 := (i 0).isLt
  have hi1 : (i 1).val < 40 := (i 1).isLt
  have hN : grid0.N = 50 := N_0
  obtain ⟨t, ht⟩ : ∃ t : Fin cfg0.N, t.val = (i 0).val / 1000 := ⟨⟨(i 0).val / 1000, by show _ < grid0.N; omega⟩, rfl⟩
  refine ⟨t, flush0_9 t, ?_⟩
  rw [mem_blk]
  obtain ⟨a00, a01, a10, a11, a20, a21, a30, a31, a40, a41, a50, a51, a60, a61, a70, a71, a80, a81, a90, a91⟩ := idx_facts t
  intro a
  match a with
  | ⟨0, _⟩ => show win0_9.index t (0 : Fin 2) * 1000 ≤ (i 0).val ∧ (i 0).val < win0_9.index t (0 : Fin 2) * 1000 + 1000; omega
  | ⟨1, _⟩ => show win0_9.index t (1 : Fin 2) * 40 ≤ (i 1).val ∧ (i 1).val < win0_9.index t (1 : Fin 2) * 40 + 40; omega

/-- THE OUTPUT ARRAY after the launch is the result. -/
theorem final : (dats m 0 c).arrAt 9 cfg0.N = result m c :=
  (dats m 0 c).arrAt_eq_of_cover 9 (result m c) (fun t _ => flushed_eq m c t) cover

/-! ## The run, read -/

/-- Every weakly fair execution of the kernel's program ends with the output at the result and the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.KernelValue

end
-- ==== Proof.lean ====
/-
  A three-layer perceptron over the nodes of a graph, each node's input its own 96 features joined with the
  mean of its in-neighbours' features: the tiled kernel against the plain reference, on the extended reals.

  Both programs compute the neighbour means on the host by the same operations (a gather of the source rows,
  two scatter-additions by destination, the degree clamped at one, a division); that stage is one function of
  the arguments and is never opened. The reference joins the feature row and the neighbour-mean row into a row
  of 192 and multiplies by the 192 x 256 first matrix; the kernel multiplies the feature rows by the matrix's
  upper 96 rows and the neighbour-mean rows by its lower 96 rows and adds. A sum over 192 terms is the sum of
  its first 96 and its last 96 terms in any commutative additive monoid, so the two agree on the extended reals
  with no finiteness assumption. The remaining layers (bias, clamp at zero, two more matrix products with biases)
  are the same sums on both sides; changes of float format are the identity. The kernel works on 50 blocks of
  1000 nodes, each block's rows depending only on the same rows of the inputs, and the blocks tile the output.

  `frame` claims: the two kernel programs by their generated frames, the reference by its run. `preserves` has no
  conjunct. `algebraic`: both runs end with the result array at the one function `G` of the arguments.
-/
import proofs.«109867_j59133109732151_1_alg».proof.Defs
import proofs.«109867_j59133109732151_1_alg».proof.Proof.Gen.Kernel
import proofs.«109867_j59133109732151_1_alg».proof.Proof.Gen.Kernel.Skeleton
import proofs.«109867_j59133109732151_1_alg».proof.Proof.Gen.Kernel.Launch
import proofs.«109867_j59133109732151_1_alg».proof.Proof.Gen.Kernel.Points
import proofs.«109867_j59133109732151_1_alg».proof.Proof.Gen.Kernel.Frame
import proofs.«109867_j59133109732151_1_alg».proof.Proof.Gen.KernelIdeal
import proofs.«109867_j59133109732151_1_alg».proof.Proof.Gen.KernelIdeal.Skeleton
import proofs.«109867_j59133109732151_1_alg».proof.Proof.Gen.KernelIdeal.Launch
import proofs.«109867_j59133109732151_1_alg».proof.Proof.Gen.KernelIdeal.Points
import proofs.«109867_j59133109732151_1_alg».proof.Proof.Gen.KernelIdeal.Frame
import proofs.«109867_j59133109732151_1_alg».proof.Proof.Gen.ReferenceIdeal
import proofs.«109867_j59133109732151_1_alg».proof.Proof.Gen.Pre_finite_inputs
import proofs.«109867_j59133109732151_1_alg».proof.Proof.Gen.KernelIdeal.Value
import proofs.«109867_j59133109732151_1_alg».proof.Proof.Gen.ReferenceIdeal.Run
import proofs.«109867_j59133109732151_1_alg».proof.Proof.Gen.ReferenceIdeal.Read
import proofs.«109867_j59133109732151_1_alg».proof.Proof.RefValue
import proofs.«109867_j59133109732151_1_alg».proof.Proof.KernelValue
import Idealize.ShloMosaic.Adequacy
import Idealize.ShloMosaic.Init

noncomputable section

namespace Cert.Proof

open Idealize.ShloMosaic Idealize.SL.Sem

/-- The kernel's program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments the kernel's output array and the reference's result are the same
    function `G` of the arguments: the kernel's by its blocks, the reference's read layer by layer. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v33_eq, Cert.ReferenceIdeal.RefValue.result_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
